-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S8x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S1x512x1024 : Shape := ⟨3, ![1, 512, 1024]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S2048x1024, .bf16⟩
  | .local _ .vmem, ⟨12, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  packedbf16_S2048x1024_S512x1024_0_0 : (Rect.unit (s := S2048x1024) ![0, 0] S512x1024.size inb_S2048x1024_S512x1024_0_0).PackedRows (EltTy.packing .bf16)
  inb_S1x2048x1024_S1x512x1024_0_512_0 : ∀ a, (![0, 512, 0] : Fin 3 → Nat) a + S1x512x1024.size a ≤ S1x2048x1024.size a
  inb_S2048x1024_S512x1024_512_0 : ∀ a, (![512, 0] : Fin 2 → Nat) a + S512x1024.size a ≤ S2048x1024.size a
  packedbf16_S2048x1024_S512x1024_512_0 : (Rect.unit (s := S2048x1024) ![512, 0] S512x1024.size inb_S2048x1024_S512x1024_512_0).PackedRows (EltTy.packing .bf16)
  inb_S1x2048x1024_S1x512x1024_0_1024_0 : ∀ a, (![0, 1024, 0] : Fin 3 → Nat) a + S1x512x1024.size a ≤ S1x2048x1024.size a
  inb_S2048x1024_S512x1024_1024_0 : ∀ a, (![1024, 0] : Fin 2 → Nat) a + S512x1024.size a ≤ S2048x1024.size a
  packedbf16_S2048x1024_S512x1024_1024_0 : (Rect.unit (s := S2048x1024) ![1024, 0] S512x1024.size inb_S2048x1024_S512x1024_1024_0).PackedRows (EltTy.packing .bf16)
  inb_S1x2048x1024_S1x512x1024_0_1536_0 : ∀ a, (![0, 1536, 0] : Fin 3 → Nat) a + S1x512x1024.size a ≤ S1x2048x1024.size a
  inb_S2048x1024_S512x1024_1536_0 : ∀ a, (![1536, 0] : Fin 2 → Nat) a + S512x1024.size a ≤ S2048x1024.size a
  packedbf16_S2048x1024_S512x1024_1536_0 : (Rect.unit (s := S2048x1024) ![1536, 0] S512x1024.size inb_S2048x1024_S512x1024_1536_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x2048x1024.size a
  hwx0_8 : ∀ i : grid0.Coords, EltTy.bits .f32 = 32 ∨ (Rect.block (s := S8x2048x1024) S1x256x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x2048x1024, .f32⟩
  | .hbm, ⟨9, _⟩ => ⟨S1x1x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.LibMaxAxis.lean ====
/-
  A one-axis maximum reduction of an `[a, b]` array at the ideal values, read at a coordinate: the fold of `max`, from
  the accumulator's value, over the reduced axis's coordinates; the host's reduce with a maximum body over
  the LAST axis of an `[a, b, c]` array likewise. And the absorption that lets a second `max` with the
  fold's own starting value be dropped.
-/
import Idealize.ShloMosaic.PureOps.Ideal.Laws
import Idealize.ShloMosaic.Lib.ValueIdx

namespace Cert.LibMaxAxis

open Idealize.ShloMosaic Idealize.ShloMosaic.ValueIdx

/-- A maximum over the second axis of an `[a, b]` array, read at `i`, is the fold of `max` over the row's entries. -/
theorem maxAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  exact congrArg (fun f => Finset.fold max (Ideal.ofBits φ acc) f (Finset.univ : Finset (Fin b)))
    (funext fun k => congrArg src (funext fun d => Fin.ext (by match d with | ⟨0, _⟩ => rfl | ⟨1, _⟩ => rfl)))

/-- A maximum over the first axis of an `[a, b]` array, read at `j`, is the fold of `max` over the column's entries. -/
theorem maxAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) (fun k => src (ix2 k j)) := by
  refine (Ideal.multiReduction_maximumf_single src acc h hφ hacc (ix1 j)).trans ?_
  exact congrArg (fun f => Finset.fold max (Ideal.ofBits φ acc) f (Finset.univ : Finset (Fin a)))
    (funext fun k => congrArg src (funext fun d => Fin.ext (by match d with | ⟨0, _⟩ => rfl | ⟨1, _⟩ => rfl)))

/-- The reduced index (i, j) with `k` put back on the last axis is (i, j, k). -/
theorem lift_ix3_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The host's reduce with a maximum body over the last axis of an `[a, b, c]` array, read at (i, j): the fold of `max`
    from the initial value over the entries (i, j, ·). -/
theorem hostMaxLastAxis_apply {φ : FTy} {a b c : ℕ} (x : FVec Ideal ⟨3, ![a, b, c]⟩ φ) (init : FVec Ideal ⟨0, ![]⟩ φ)
    (h' : (⟨3, ![a, b, c]⟩ : Shape).ReducesTo [2] (⟨2, ![a, b]⟩ : Shape)) (h : (⟨3, ![a, b, c]⟩ : Shape).Reduces [2] (⟨2, ![a, b]⟩ : Shape))
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  exact congrArg (fun f => Finset.fold max (init (Shape.Idx.first hu)) f (Finset.univ : Finset (Fin c)))
    (funext fun k => congrArg x (lift_ix3_last h i j k))

/-- A fold of `max` is at least its starting value, so taking `max` with that value again changes nothing. -/
theorem max_fold_max_self {ι : Type*} {α : Type*} [LinearOrder α] (s : Finset ι) (c : α) (f : ι → α) :
    max c (s.fold max c f) = s.fold max c f :=
  max_eq_right ((Finset.le_fold_max c).mpr (Or.inl le_rfl))

end Cert.LibMaxAxis
-- ==== Proof.LibRowKeepdims.lean ====
/-
  Row reductions written with keepdims, at the ideal values: a maximum (or a sum) over the second axis of an `[a, b]`
  array, made a column `[a, 1]` and repeated along the rows back to `[a, b]`, reads at (i, k) the fold of `max` over row
  i (the sum of row i), whatever k. Together they read a row softmax `exp (s - max) / Σ exp (s - max)` at an entry.
-/
import proofs.«134540_j47493748359984_2_alg».proof.Proof.LibReadAt
import proofs.«134540_j47493748359984_2_alg».proof.Proof.LibMaxAxis

namespace Cert.LibRowKeepdims

open Idealize.ShloMosaic Idealize.ShloMosaic.ValueIdx

/-- One entry of the softmax of a finite family `f`, written as programs compute it: with `m` the fold of `max` from `c`
    over the family, `exp (f k - m) / Σ_k' exp (f k' - m)`. -/
noncomputable def softmaxEntry {n : ℕ} (f : Fin n → EReal) (c : EReal) (k : Fin n) : EReal :=
  Ideal.div (Ideal.exp (f k - (Finset.univ : Finset (Fin n)).fold max c f))
    (∑ k' : Fin n, Ideal.exp (f k' - (Finset.univ : Finset (Fin n)).fold max c f))

/-- The row maximum, kept as a column and broadcast back, at (i, k): the fold of `max` over row i. -/
theorem rowMax_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .maximumf [1] ⟨1, ![a]⟩ s acc hr hφ hacc) hc) hb (ix2 i k)
      = (Finset.univ : Finset (Fin b)).fold max (Ideal.ofBits φ acc) (fun k' => s (ix2 i k')) :=
  (Cert.LibReadAt.broadcastTo_a1_ab_apply _ hb i k).trans
    ((Cert.LibReadAt.shapeCast_a_a1_apply _ hc i 0).trans (Cert.LibMaxAxis.maxAxis1_apply s acc hr hφ hacc i))

/-- The row sum, kept as a column and broadcast back, at (i, k): the sum of row i. -/
theorem rowSum_keepdims_apply {φ : FTy} {a b : ℕ} (s : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩) (i : Fin a) (k : Fin b) :
    broadcastTo ⟨2, ![a, b]⟩ (shapeCast ⟨2, ![a, 1]⟩ (multiReduction .add [1] ⟨1, ![a]⟩ s acc hr hφ hacc) hc) hb (ix2 i k)
      = ∑ k' : Fin b, s (ix2 i k') :=
  (Cert.LibReadAt.broadcastTo_a1_ab_apply _ hb i k).trans
    ((Cert.LibReadAt.shapeCast_a_a1_apply _ hc i 0).trans (Cert.LibReadAt.sumAxis1_apply s acc hr hφ hacc i))

/-- The softmax numerator `exp (s - rowmax s)` with the maximum kept as a column, at (i, k). -/
theorem expSubRowMax_apply {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (i : Fin a) (k : Fin b) :
    exp (subf s (broadcastTo ⟨2, ![a, b]⟩ (shapeCast ⟨2, ![a, 1]⟩ (multiReduction .maximumf [1] ⟨1, ![a]⟩ s acc hr hφ hacc) hc) hb)) (ix2 i k)
      = Ideal.exp (s (ix2 i k) - (Finset.univ : Finset (Fin b)).fold max (Ideal.ofBits .f32 acc) (fun k' => s (ix2 i k'))) :=
  congrArg (fun z => Ideal.exp (s (ix2 i k) - z)) (rowMax_keepdims_apply s acc hr hφ hacc hc hb i k)

/-- A row softmax written with keepdims reductions — the numerator `p = exp (s - rowmax s)` divided by its row sum —
    at (i, k): the softmax entry k of row i of `s`. -/
theorem softmaxRows_apply {a b : ℕ} (s : FVec Ideal ⟨2, ![a, b]⟩ .f32) (accM accS : BitVec 32)
    (hr : (⟨2, ![a, b]⟩ : Shape).Reduces [1] ⟨1, ![a]⟩) (hφM : FKind.Formats .f32) (haccM : accM = FKind.maximumf.neutral .f32 hφM)
    (hφS : FKind.Formats .f32) (haccS : accS = FKind.add.neutral .f32 hφS)
    (hc : (⟨1, ![a]⟩ : Shape).ShapeCasts ⟨2, ![a, 1]⟩) (hb : (⟨2, ![a, 1]⟩ : Shape).Broadcasts ⟨2, ![a, b]⟩) (i : Fin a) (k : Fin b) :
    divf (exp (subf s (broadcastTo ⟨2, ![a, b]⟩ (shapeCast ⟨2, ![a, 1]⟩ (multiReduction .maximumf [1] ⟨1, ![a]⟩ s accM hr hφM haccM) hc) hb)))
      (broadcastTo ⟨2, ![a, b]⟩ (shapeCast ⟨2, ![a, 1]⟩ (multiReduction .add [1] ⟨1, ![a]⟩
        (exp (subf s (broadcastTo ⟨2, ![a, b]⟩ (shapeCast ⟨2, ![a, 1]⟩ (multiReduction .maximumf [1] ⟨1, ![a]⟩ s accM hr hφM haccM) hc) hb)))
        accS hr hφS haccS) hc) hb) (ix2 i k)
      = softmaxEntry (fun k' => s (ix2 i k')) (Ideal.ofBits .f32 accM) k :=
  congrArg₂ Ideal.div (expSubRowMax_apply s accM hr hφM haccM hc hb i k)
    ((rowSum_keepdims_apply _ accS hr hφS haccS hc hb i k).trans
      (Finset.sum_congr rfl fun k' _ => expSubRowMax_apply s accM hr hφM haccM hc hb i k'))

end Cert.LibRowKeepdims
-- ==== Proof.Spec.lean ====
/-
  The function both programs compute, on the extended reals, entry by entry.

  For a batch b the three projections are  Q = X₁[b]·Wq + bq,  K = X₂[b]·Wk + bk,  V = X₂[b]·Wv + bv  (each entry a sum
  over the 1024 input channels plus a bias entry).  For one query row q of Q the scores against the 2048 keys are
  s_k = min(100, max(-100, (Σ_e q_e·K_{k,e})·(1/32)));  with m = max_k s_k (folded from -∞), p_k = exp(s_k - m) and
  l = Σ_k p_k, the output row is  o_e = Σ_k (p_k / l)·V_{k,e}.  The five float literals stay the bit patterns the
  programs print: the same word on both sides is never evaluated.
-/
import Idealize.ShloMosaic.PureOps.Ideal
import Idealize.ShloMosaic.Lib.ValueIdx
import proofs.«134540_j47493748359984_2_alg».proof.Proof.LibRowKeepdims

noncomputable section

namespace Cert.Attn

open Idealize.ShloMosaic Idealize.ShloMosaic.ValueIdx Cert.LibRowKeepdims

/-- 1/32, the score scale. -/
abbrev scaleC : EReal := Ideal.ofBits .f32 0x3D000000#32
/-- -100, the lower clamp. -/
abbrev loC : EReal := Ideal.ofBits .f32 0xC2C80000#32
/-- +100, the upper clamp. -/
abbrev hiC : EReal := Ideal.ofBits .f32 0x42C80000#32
/-- -∞, where the row maximum's fold starts. -/
abbrev negInfC : EReal := Ideal.ofBits .f32 0xFF800000#32

/-- The clamped, scaled score of a query row `q` against key row `k`. -/
def score {n d : ℕ} (q : Fin d → EReal) (K : Fin n → Fin d → EReal) (k : Fin n) : EReal :=
  min hiC (max loC ((∑ e : Fin d, q e * K k e) * scaleC))

/-- One entry of the attention output of a query row: Σ_k softmax(s)_k·V_{k,e}, the softmax's maximum folded from -∞. -/
def attnRow {n d : ℕ} (q : Fin d → EReal) (K V : Fin n → Fin d → EReal) (e : Fin d) : EReal :=
  ∑ k : Fin n, softmaxEntry (score q K) negInfC k * V k e

/-- One entry of a projection: row `r` of batch `b` of `X` against column `e` of `W`, plus the bias entry. -/
def proj {B R D E : ℕ} (X : (⟨3, ![B, R, D]⟩ : Shape).Idx → EReal) (W : (⟨2, ![D, E]⟩ : Shape).Idx → EReal)
    (bias : (⟨1, ![E]⟩ : Shape).Idx → EReal) (b : Fin B) (r : Fin R) (e : Fin E) : EReal :=
  (∑ d : Fin D, X (ix3 b r d) * W (ix2 d e)) + bias (ix1 e)

/-- The whole result: entry (b, q, e) is the attention output of query row (b, q) against batch b's keys and values. -/
def G (X₁ X₂ : (⟨3, ![8, 2048, 1024]⟩ : Shape).Idx → EReal) (Wq Wk Wv : (⟨2, ![1024, 1024]⟩ : Shape).Idx → EReal)
    (bq bk bv : (⟨1, ![1024]⟩ : Shape).Idx → EReal) : (⟨3, ![8, 2048, 1024]⟩ : Shape).Idx → EReal :=
  fun i => attnRow (fun e => proj X₁ Wq bq (i 0) (i 1) e) (fun k e => proj X₂ Wk bk (i 0) k e)
    (fun k e => proj X₂ Wv bv (i 0) k e) (i 2)

end Cert.Attn

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by the TRANSPOSE of an N × K matrix (the right operand contracted on its last
  axis) into a zero accumulator, read at one entry on the extended reals: entry (i, j) is Σ_k lhs (i, k) · rhs (j, k).
-/
import Idealize.ShloMosaic.PureOps.Ideal.Laws
import Idealize.ShloMosaic.Lib.ValueIdx

noncomputable section

namespace Cert.MatmulNT

open Idealize.ShloMosaic Idealize.ShloMosaic.ValueIdx

/-- Entry (i, j) of `lhs` (M × K) times the transpose of `rhs` (N × K), accumulated into zeros. -/
theorem matmul_nt_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.KernelPay.lean ====
/-
  The kernel body's arithmetic read entry by entry on the extended reals.

  Every block the body stores into its key and value scratch is a PROJECTION of a 512-row slab of the second input:
  entry (r, e) is Σ_d x (0, r, d)·w (d, e) + bias (0, e) — the rounding to the matrix unit's input format and back being
  the identity here, and the matrix product into zeros a plain sum. The query tile is the same projection of a 256-row
  slab. What the body stores into its output block is, row by row, the attention of `Spec.lean`: clamped scaled scores
  against the key scratch, their row maximum and row sum kept as columns, the quotient, and the product with the value
  scratch.
-/
import proofs.«134540_j47493748359984_2_alg».proof.Proof.Gen.KernelIdeal.Skeleton
import proofs.«134540_j47493748359984_2_alg».proof.Proof.Spec
import proofs.«134540_j47493748359984_2_alg».proof.Proof.LibPlainMatmul
import proofs.«134540_j47493748359984_2_alg».proof.Proof.LibMatmulNT
import proofs.«134540_j47493748359984_2_alg».proof.Proof.LibRowKeepdims
import Idealize.ShloMosaic.Lib.ValueLayout

noncomputable section

namespace Cert.KernelIdeal.Pay

open Cert.KernelIdeal Cert.KernelIdeal.Gen Idealize.ShloMosaic Idealize.ShloMosaic.ValueIdx Cert.Attn Cert.LibRowKeepdims

/-- The projection of a slab of `R` rows: entry (r, e) is Σ_d x (0, r, d)·w (d, e) + bias (0, e). -/
def rowsProj {R : ℕ} (x : (⟨3, ![1, R, 1024]⟩ : Shape).Idx → EReal) (w : (⟨2, ![1024, 1024]⟩ : Shape).Idx → EReal)
    (bias : (⟨2, ![1, 1024]⟩ : Shape).Idx → EReal) : (⟨2, ![R, 1024]⟩ : Shape).Idx → EReal :=
  fun j => (∑ d : Fin 1024, x (ix3 (0 : Fin 1) (j 0) d) * w (ix2 d (j 1))) + bias (ix2 (0 : Fin 1) (j 1))

/-- The slab made a matrix and rounded for the matrix unit, times the weights into zeros, plus the bias row repeated:
    the projection, entry by entry. -/
theorem projRows_eq {R : ℕ} (x : FVec Ideal ⟨3, ![1, R, 1024]⟩ .f32) (w : FVec Ideal ⟨2, ![1024, 1024]⟩ .bf16)
    (bias : FVec Ideal ⟨2, ![1, 1024]⟩ .f32)
    (hc : (⟨3, ![1, R, 1024]⟩ : Shape).ShapeCasts ⟨2, ![R, 1024]⟩) (hb : (⟨2, ![1, 1024]⟩ : Shape).Broadcasts ⟨2, ![R, 1024]⟩)
    (hlt : FTy.bf16.bits < FTy.f32.bits) :
    addf (matmul (DotDims.plain R 1024 1024) none (truncf .bf16 (shapeCast ⟨2, ![R, 1024]⟩ x hc) hlt) w
        (constant ⟨2, ![R, 1024]⟩ .f32 0x00000000#32)) (broadcastTo ⟨2, ![R, 1024]⟩ bias hb)
      = rowsProj x w bias := by
  funext j
  obtain ⟨r, e, rfl⟩ : ∃ (r : Fin R) (e : Fin 1024), j = ix2 r e := ⟨j 0, j 1, eq_ix2 j⟩
  show matmul (DotDims.plain R 1024 1024) none (truncf .bf16 (shapeCast ⟨2, ![R, 1024]⟩ x hc) hlt) w
        (constant ⟨2, ![R, 1024]⟩ .f32 0x00000000#32) (ix2 r e) + broadcastTo ⟨2, ![R, 1024]⟩ bias hb (ix2 r e) = _
  rw [broadcastTo_1b_ab_apply bias hb r e]
  refine congrArg (· + bias (ix2 (0 : Fin 1) e)) ?_
  refine (Cert.PlainMatmul.matmul_zero_apply R 1024 1024 none _ w r e).trans ?_
  refine Finset.sum_congr rfl fun d _ => ?_
  exact congrArg (· * w (ix2 d e)) (shapeCast_1ab_ab_apply x hc r d)

variable (x : Vec Ideal S1x512x1024 .f32) (w : Vec Ideal S1024x1024 .bf16) (bias : Vec Ideal S1x1024 .f32)

/-- The first slab's key block. -/
theorem pay3_eq : k0_pay3 x w bias = rowsProj x w bias := by
  unfold k0_pay3 k0_pay2
  simp only [shapeCast_self]
  exact projRows_eq x w bias _ _ _

/-- The first slab's value block. -/
theorem pay4_eq : k0_pay4 x w bias = rowsProj x w bias := by
  unfold k0_pay4 k0_pay2
  simp only [shapeCast_self]
  exact projRows_eq x w bias _ _ _

/-- The second slab's key block. -/
theorem pay8_eq : k0_pay8 (k0_pay6 x w) (k0_pay7 bias) = rowsProj x w bias := by
  unfold k0_pay8 k0_pay6 k0_pay7 k0_pay5
  simp only [shapeCast_self]
  exact projRows_eq x w bias _ _ _

/-- The second slab's value block. -/
theorem pay9_eq : k0_pay9 (k0_pay5 x) w bias = rowsProj x w bias := by
  unfold k0_pay9 k0_pay5
  simp only [shapeCast_self]
  exact projRows_eq x w bias _ _ _

/-- The third slab's key block. -/
theorem pay13_eq : k0_pay13 (k0_pay12 x w bias) = rowsProj x w bias := by
  unfold k0_pay13 k0_pay12 k0_pay10
  simp only [shapeCast_self]
  exact projRows_eq x w bias _ _ _

/-- The third slab's value block. -/
theorem pay14_eq : k0_pay14 (k0_pay11 x w bias) = rowsProj x w bias := by
  unfold k0_pay14 k0_pay11 k0_pay10
  simp only [shapeCast_self]
  exact projRows_eq x w bias _ _ _

/-- The fourth slab's key block. -/
theorem pay16_eq : k0_pay16 x w bias = rowsProj x w bias := by
  unfold k0_pay16 k0_pay15
  simp only [shapeCast_self]
  exact projRows_eq x w bias _ _ _

/-- The fourth slab's value block. -/
theorem pay17_eq : k0_pay17 x w bias = rowsProj x w bias := by
  unfold k0_pay17 k0_pay15
  simp only [shapeCast_self]
  exact projRows_eq x w bias _ _ _

/-- The score block: the query tile against the transposed key scratch, scaled by 1/32 and clamped to [-100, 100],
    at (r, k), is the score of query row r against key row k. -/
theorem scores_apply (qv : FVec Ideal ⟨2, ![256, 1024]⟩ .bf16) (ks : FVec Ideal ⟨2, ![2048, 1024]⟩ .bf16) (r : Fin 256) (k : Fin 2048) :
    minimumf (broadcast ⟨2, ![256, 2048]⟩ (Scalar.ofBits (F := Ideal) .f32 0x42C80000#32))
        (maximumf (broadcast ⟨2, ![256, 2048]⟩ (Scalar.ofBits (F := Ideal) .f32 0xC2C80000#32))
          (mulf (matmul (DotDims.transposedRhs 256 1024 2048) none qv ks (constant ⟨2, ![256, 2048]⟩ .f32 0x00000000#32))
            (broadcast ⟨2, ![256, 2048]⟩ (Scalar.ofBits (F := Ideal) .f32 0x3D000000#32)))) (ix2 r k)
      = score (fun e => qv (ix2 r e)) (fun k' e => ks (ix2 k' e)) k := by
  exact congrArg (fun z => min hiC (max loC (z * scaleC))) (Cert.MatmulNT.matmul_nt_zero_apply 256 1024 2048 none qv ks r k)

/-- What the body stores into its output block, at (0, r, e): the attention of query row r — the projection of row r of
    the query slab — against the key and value scratch. -/
theorem pay18_apply (x0 : Vec Ideal S1x256x1024 .f32) (wq : Vec Ideal S1024x1024 .bf16) (bq : Vec Ideal S1x1024 .f32)
    (ks vs : Vec Ideal S2048x1024 .bf16) (u : Fin 1) (r : Fin 256) (e : Fin 1024) :
    k0_pay1 (F := Ideal) (k0_pay18 x0 wq bq ks vs) (ix3 u r e)
      = attnRow (fun e' => rowsProj x0 wq bq (ix2 r e')) (fun k e' => ks (ix2 k e')) (fun k e' => vs (ix2 k e')) e := by
  unfold k0_pay1
  refine (shapeCast_ab_1ab_apply _ _ u r e).trans ?_
  unfold k0_pay18
  simp only [shapeCast_self]
  refine (Cert.PlainMatmul.matmul_zero_apply 256 2048 1024 (φ₁ := .bf16) (φ₂ := .bf16) none _ (vs : FVec Ideal ⟨2, ![2048, 1024]⟩ .bf16) r e).trans ?_
  unfold attnRow
  refine Finset.sum_congr rfl fun k _ => ?_
  refine congrArg (· * vs (ix2 k e)) ?_
  refine (truncf_apply (φ := .f32) (ψ := .bf16) _ _ _).trans ?_
  refine (softmaxRows_apply _ _ _ _ _ _ _ _ _ _ r k).trans ?_
  refine congrArg (fun f => softmaxEntry f negInfC k) (funext fun k' => ?_)
  refine (scores_apply _ (ks : FVec Ideal ⟨2, ![2048, 1024]⟩ .bf16) r k').trans ?_
  refine congrArg (fun q => score q (fun k'' e' => ks (ix2 k'' e')) k') (funext fun e' => ?_)
  refine (truncf_apply (φ := .f32) (ψ := .bf16) _ _ _).trans ?_
  exact congrFun (projRows_eq x0 wq bq _ _ _) (ix2 r e')

end Cert.KernelIdeal.Pay

end
-- ==== Proof.KernelPieces.lean ====
/-
  What one run of the kernel body leaves in its buffers, as values.

  At a batch's first query tile the body fills the key scratch (and the value scratch) with four stores, one per
  512-row slab of the second input's block; each store's payload is the projection of its slab, which is the
  projection of the whole 2048-row block at the slab's rows. So the four stores together leave the projection of the
  whole block. The output block is stored once, whole: the attention of the query tile against what the two scratch
  buffers hold — what was just stored at a batch's first tile, what the point before left otherwise.
-/
import proofs.«134540_j47493748359984_2_alg».proof.Proof.Gen.KernelIdeal.Frame
import proofs.«134540_j47493748359984_2_alg».proof.Proof.KernelPay
import Idealize.ShloMosaic.Lib.Pipeline.Value
import Idealize.ShloMosaic.Lib.Tactic

noncomputable section

namespace Cert.KernelIdeal.Pieces

open Cert.KernelIdeal Cert.KernelIdeal.Gen Cert.KernelIdeal.Pay Idealize.ShloMosaic Idealize.ShloMosaic.TcCoe Idealize.SL.Sem
open Idealize.ShloMosaic.ValueIdx Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The projection of the 512-row slab at row offset `o` of a 2048-row block is the block's projection at rows
    o … o + 511. -/
theorem slab_rowsProj (o : ℕ) (x1 : Vec Ideal S1x2048x1024 .f32) (w : Vec Ideal S1024x1024 .bf16) (b : Vec Ideal S1x1024 .f32)
    (inb3 : ∀ a, (![0, o, 0] : Fin 3 → Nat) a + S1x512x1024.size a ≤ S1x2048x1024.size a)
    (inb2 : ∀ a, (![o, 0] : Fin 2 → Nat) a + S512x1024.size a ≤ S2048x1024.size a) (x : S512x1024.Idx) :
    rowsProj (R := 512) (View.ld x1 (Rect.unit (s := S1x2048x1024) ![0, o, 0] S1x512x1024.size inb3)) w b x
      = rowsProj (R := 2048) x1 w b ((Rect.unit (s := S2048x1024) ![o, 0] S512x1024.size inb2).emb x) := by
  unfold rowsProj
  have e1 : ((Rect.unit (s := S2048x1024) ![o, 0] S512x1024.size inb2).emb x) 1 = x 1 :=
    Fin.ext (by show 0 + 1 * (x 1).val = (x 1).val; omega)
  rw [e1]
  refine congrArg (· + b (ix2 (0 : Fin 1) (x 1))) (Finset.sum_congr rfl fun d _ => ?_)
  refine congrArg (· * w (ix2 d (x 1))) (congrArg x1 ?_)
  funext a; apply Fin.ext
  match a with
  | ⟨0, _⟩ => rfl
  | ⟨1, _⟩ => rfl
  | ⟨2, _⟩ => show 0 + 1 * d.val = d.val; omega

/-- Four stores of 512 rows each, at rows 0, 512, 1024 and 1536, whose payloads are the rows of ONE function of the
    2048-row buffer's index, leave that function. -/
theorem canon_slabs (Gf : S2048x1024.Idx → Elt Ideal .bf16)
    (P0 P1 P2 P3 : S512x1024.Idx → Elt Ideal .bf16)
    (h0 : ∀ x, P0 x = Gf ((Rect.unit (s := S2048x1024) ![0, 0] S512x1024.size inb_S2048x1024_S512x1024_0_0).emb x))
    (h1 : ∀ x, P1 x = Gf ((Rect.unit (s := S2048x1024) ![512, 0] S512x1024.size inb_S2048x1024_S512x1024_512_0).emb x))
    (h2 : ∀ x, P2 x = Gf ((Rect.unit (s := S2048x1024) ![1024, 0] S512x1024.size inb_S2048x1024_S512x1024_1024_0).emb x))
    (h3 : ∀ x, P3 x = Gf ((Rect.unit (s := S2048x1024) ![1536, 0] S512x1024.size inb_S2048x1024_S512x1024_1536_0).emb x)) :
    View.canon (Val := Elt Ideal) (s := S2048x1024) (e := .bf16)
      [⟨Rect.unit (s := S2048x1024) ![1536, 0] S512x1024.size inb_S2048x1024_S512x1024_1536_0, P3⟩,
       ⟨Rect.unit (s := S2048x1024) ![1024, 0] S512x1024.size inb_S2048x1024_S512x1024_1024_0, P2⟩,
       ⟨Rect.unit (s := S2048x1024) ![512, 0] S512x1024.size inb_S2048x1024_S512x1024_512_0, P1⟩,
       ⟨Rect.unit (s := S2048x1024) ![0, 0] S512x1024.size inb_S2048x1024_S512x1024_0_0, P0⟩] = Gf := by
  funext y
  refine View.canon_apply_of_pieces Gf _ ?_ y (View.cover_of_tiledL (s := S2048x1024) _ S512x1024.size (by sl_kernel_rfl) y)
  intro p hp
  rcases List.mem_cons.mp hp with rfl | hp
  · exact h3
  rcases List.mem_cons.mp hp with rfl | hp
  · exact h2
  rcases List.mem_cons.mp hp with rfl | hp
  · exact h1
  rcases List.mem_cons.mp hp with rfl | hp
  · exact h0
  · exact absurd hp List.not_mem_nil

/-! ## The body's loads, named -/

/-- A whole load of a weight buffer. -/
abbrev ldW (a : Memref sig .tc .vmem S1024x1024 .bf16) (h : a.IsWhole) (x : Vec Ideal S1024x1024 .bf16) : Vec Ideal S1024x1024 .bf16 :=
  View.readAt (Elt Ideal) a.view (Rect.unit (s := S1024x1024) ![0, 0] S1024x1024.size inb_S1024x1024_S1024x1024_0_0).toLoadRect (h.unread x)
theorem ldW_eq (a : Memref sig .tc .vmem S1024x1024 .bf16) (h : a.IsWhole) (x : Vec Ideal S1024x1024 .bf16) : ldW a h x = x := by
  unfold ldW; rw [View.readAt_eq_ld, h.read_unread]; exact View.ld_unit_zero (S := S1024x1024) hz2 _ x

/-- A whole load of a bias buffer. -/
abbrev ldB (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size inb_S1x1024_S1x1024_0_0).toLoadRect (h.unread x)
theorem ldB_eq (a : Memref sig .tc .vmem S1x1024 .f32) (h : a.IsWhole) (x : Vec Ideal S1x1024 .f32) : ldB a h x = x := by
  unfold ldB; rw [View.readAt_eq_ld, h.read_unread]; exact View.ld_unit_zero (S := S1x1024) hz2 _ x

/-- A whole load of the query tile's buffer. -/
abbrev ldQ (a : Memref sig .tc .vmem S1x256x1024 .f32) (h : a.IsWhole) (x : Vec Ideal S1x256x1024 .f32) : Vec Ideal S1x256x1024 .f32 :=
  View.readAt (Elt Ideal) a.view (Rect.unit (s := S1x256x1024) ![0, 0, 0] S1x256x1024.size inb_S1x256x1024_S1x256x1024_0_0_0).toLoadRect (h.unread x)
theorem ldQ_eq (a : Memref sig .tc .vmem S1x256x1024 .f32) (h : a.IsWhole) (x : Vec Ideal S1x256x1024 .f32) : ldQ a h x = x := by
  unfold ldQ; rw [View.readAt_eq_ld, h.read_unread]; exact View.ld_unit_zero (S := S1x256x1024) hz3 _ x

/-- A whole load of a scratch buffer at known contents. -/
abbrev ldS (a : Memref sig .tc .vmem S2048x1024 .bf16) (h : a.IsWhole) (x : Vec Ideal S2048x1024 .bf16) : Vec Ideal S2048x1024 .bf16 :=
  View.readAt (Elt Ideal) a.view (Rect.unit (s := S2048x1024) ![0, 0] S2048x1024.size inb_S2048x1024_S2048x1024_0_0).toLoadRect (h.unread x)
theorem ldS_eq (a : Memref sig .tc .vmem S2048x1024 .bf16) (h : a.IsWhole) (x : Vec Ideal S2048x1024 .bf16) : ldS a h x = x := by
  unfold ldS; rw [View.readAt_eq_ld, h.read_unread]; exact View.ld_unit_zero (S := S2048x1024) hz2 _ x

/-- A load of the 512-row slab at row offset `o` of the second input's block. -/
abbrev ldX (o : ℕ) (inb3 : ∀ a, (![0, o, 0] : Fin 3 → Nat) a + S1x512x1024.size a ≤ S1x2048x1024.size a)
    (a : Memref sig .tc .vmem S1x2048x1024 .f32) (h : a.IsWhole) (x : Vec Ideal S1x2048x1024 .f32) : Vec Ideal S1x512x1024 .f32 :=
  View.readAt (Elt Ideal) a.view (Rect.unit (s := S1x2048x1024) ![0, o, 0] S1x512x1024.size inb3).toLoadRect (h.unread x)
theorem ldX_eq (o : ℕ) (inb3 : ∀ a, (![0, o, 0] : Fin 3 → Nat) a + S1x512x1024.size a ≤ S1x2048x1024.size a)
    (a : Memref sig .tc .vmem S1x2048x1024 .f32) (h : a.IsWhole) (x : Vec Ideal S1x2048x1024 .f32) :
    ldX o inb3 a h x = View.ld x (Rect.unit (s := S1x2048x1024) ![0, o, 0] S1x512x1024.size inb3) := by
  unfold ldX; rw [View.readAt_eq_ld, h.read_unread]

/-! ## The four stores into each scratch buffer -/

section Stores

variable (arg3 : Memref sig .tc .vmem S1x2048x1024 .f32) (harg3 : arg3.IsWhole) (arg6 : Memref sig .tc .vmem S1024x1024 .bf16) (harg6 : arg6.IsWhole) (arg7 : Memref sig .tc .vmem S1x1024 .f32) (harg7 : arg7.IsWhole)
  (x1 : Vec Ideal S1x2048x1024 .f32) (xw : Vec Ideal S1024x1024 .bf16) (xb : Vec Ideal S1x1024 .f32)

/-- The stores into the key scratch, last first. -/
abbrev kList : List (View.Piece (Elt Ideal) S2048x1024 .bf16) :=
  [⟨Rect.unit (s := S2048x1024) ![1536, 0] S512x1024.size inb_S2048x1024_S512x1024_1536_0,
      k0_pay16 (ldX 1536 inb_S1x2048x1024_S1x512x1024_0_1536_0 arg3 harg3 x1) (ldW arg6 harg6 xw) (ldB arg7 harg7 xb)⟩,
   ⟨Rect.unit (s := S2048x1024) ![1024, 0] S512x1024.size inb_S2048x1024_S512x1024_1024_0,
      k0_pay13 (k0_pay12 (ldX 1024 inb_S1x2048x1024_S1x512x1024_0_1024_0 arg3 harg3 x1) (ldW arg6 harg6 xw) (ldB arg7 harg7 xb))⟩,
   ⟨Rect.unit (s := S2048x1024) ![512, 0] S512x1024.size inb_S2048x1024_S512x1024_512_0,
      k0_pay8 (k0_pay6 (ldX 512 inb_S1x2048x1024_S1x512x1024_0_512_0 arg3 harg3 x1) (ldW arg6 harg6 xw)) (k0_pay7 (ldB arg7 harg7 xb))⟩,
   ⟨Rect.unit (s := S2048x1024) ![0, 0] S512x1024.size inb_S2048x1024_S512x1024_0_0,
      k0_pay3 (ldX 0 inb_S1x2048x1024_S1x512x1024_0_0_0 arg3 harg3 x1) (ldW arg6 harg6 xw) (ldB arg7 harg7 xb)⟩]

/-- They leave the projection of the whole block. -/
theorem canon_kList : View.canon (kList arg3 harg3 arg6 harg6 arg7 harg7 x1 xw xb) = rowsProj x1 xw xb := by
  refine canon_slabs (rowsProj x1 xw xb) _ _ _ _ ?_ ?_ ?_ ?_
  · intro x; rw [ldX_eq, ldW_eq, ldB_eq, pay3_eq]; exact slab_rowsProj 0 x1 xw xb _ _ x
  · intro x; rw [ldX_eq, ldW_eq, ldB_eq, pay8_eq]; exact slab_rowsProj 512 x1 xw xb _ _ x
  · intro x; rw [ldX_eq, ldW_eq, ldB_eq, pay13_eq]; exact slab_rowsProj 1024 x1 xw xb _ _ x
  · intro x; rw [ldX_eq, ldW_eq, ldB_eq, pay16_eq]; exact slab_rowsProj 1536 x1 xw xb _ _ x

/-- A whole load of the key scratch after them reads that projection. -/
theorem readCov_kList (a : Memref sig .tc .vmem S2048x1024 .bf16) :
    a.view.readCov (kList arg3 harg3 arg6 harg6 arg7 harg7 x1 xw xb)
      (Rect.unit (s := S2048x1024) ![0, 0] S2048x1024.size inb_S2048x1024_S2048x1024_0_0).toLoadRect = rowsProj x1 xw xb := by
  rw [View.readCov_eq_canon']
  show View.ld (View.canon (kList arg3 harg3 arg6 harg6 arg7 harg7 x1 xw xb))
    (Rect.unit (s := S2048x1024) ![0, 0] S2048x1024.size inb_S2048x1024_S2048x1024_0_0) = _
  rw [View.ld_unit_zero (S := S2048x1024) hz2]
  exact canon_kList arg3 harg3 arg6 harg6 arg7 harg7 x1 xw xb

/-- The stores into the value scratch, last first. -/
abbrev vList : List (View.Piece (Elt Ideal) S2048x1024 .bf16) :=
  [⟨Rect.unit (s := S2048x1024) ![1536, 0] S512x1024.size inb_S2048x1024_S512x1024_1536_0,
      k0_pay17 (ldX 1536 inb_S1x2048x1024_S1x512x1024_0_1536_0 arg3 harg3 x1) (ldW arg6 harg6 xw) (ldB arg7 harg7 xb)⟩,
   ⟨Rect.unit (s := S2048x1024) ![1024, 0] S512x1024.size inb_S2048x1024_S512x1024_1024_0,
      k0_pay14 (k0_pay11 (ldX 1024 inb_S1x2048x1024_S1x512x1024_0_1024_0 arg3 harg3 x1) (ldW arg6 harg6 xw) (ldB arg7 harg7 xb))⟩,
   ⟨Rect.unit (s := S2048x1024) ![512, 0] S512x1024.size inb_S2048x1024_S512x1024_512_0,
      k0_pay9 (k0_pay5 (ldX 512 inb_S1x2048x1024_S1x512x1024_0_512_0 arg3 harg3 x1)) (ldW arg6 harg6 xw) (ldB arg7 harg7 xb)⟩,
   ⟨Rect.unit (s := S2048x1024) ![0, 0] S512x1024.size inb_S2048x1024_S512x1024_0_0,
      k0_pay4 (ldX 0 inb_S1x2048x1024_S1x512x1024_0_0_0 arg3 harg3 x1) (ldW arg6 harg6 xw) (ldB arg7 harg7 xb)⟩]

/-- They leave the projection of the whole block. -/
theorem canon_vList : View.canon (vList arg3 harg3 arg6 harg6 arg7 harg7 x1 xw xb) = rowsProj x1 xw xb := by
  refine canon_slabs (rowsProj x1 xw xb) _ _ _ _ ?_ ?_ ?_ ?_
  · intro x; rw [ldX_eq, ldW_eq, ldB_eq, pay4_eq]; exact slab_rowsProj 0 x1 xw xb _ _ x
  · intro x; rw [ldX_eq, ldW_eq, ldB_eq, pay9_eq]; exact slab_rowsProj 512 x1 xw xb _ _ x
  · intro x; rw [ldX_eq, ldW_eq, ldB_eq, pay14_eq]; exact slab_rowsProj 1024 x1 xw xb _ _ x
  · intro x; rw [ldX_eq, ldW_eq, ldB_eq, pay17_eq]; exact slab_rowsProj 1536 x1 xw xb _ _ x

/-- A whole load of the value scratch after them reads that projection. -/
theorem readCov_vList (a : Memref sig .tc .vmem S2048x1024 .bf16) :
    a.view.readCov (vList arg3 harg3 arg6 harg6 arg7 harg7 x1 xw xb)
      (Rect.unit (s := S2048x1024) ![0, 0] S2048x1024.size inb_S2048x1024_S2048x1024_0_0).toLoadRect = rowsProj x1 xw xb := by
  rw [View.readCov_eq_canon']
  show View.ld (View.canon (vList arg3 harg3 arg6 harg6 arg7 harg7 x1 xw xb))
    (Rect.unit (s := S2048x1024) ![0, 0] S2048x1024.size inb_S2048x1024_S2048x1024_0_0) = _
  rw [View.ld_unit_zero (S := S2048x1024) hz2]
  exact canon_vList arg3 harg3 arg6 harg6 arg7 harg7 x1 xw xb

end Stores

/-! ## What each case of the body leaves -/

section Cases

variable (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x256x1024 .f32) (harg10 : arg10.IsWhole) (arg11 : Memref sig .tc .vmem S2048x1024 .bf16) (harg11 : arg11.IsWhole) (arg12 : Memref sig .tc .vmem S2048x1024 .bf16) (harg12 : arg12.IsWhole)
  (x0 : Vec Ideal S1x256x1024 .f32) (x1 : Vec Ideal S1x2048x1024 .f32) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32)

/-- At a batch's first tile the key scratch ends holding the key projection of the second input's block. -/
theorem sout_A_0 (hc0 : cond0_0 i) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = rowsProj x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  exact canon_kList arg3 harg3 arg6 harg6 arg7 harg7 x1 x4 x5

/-- … and the value scratch its value projection. -/
theorem sout_A_1 (hc0 : cond0_0 i) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = rowsProj x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  exact canon_vList arg3 harg3 arg8 harg8 arg9 harg9 x1 x6 x7

/-- … and the output block the attention of the query tile against those two projections. -/
theorem out_A_8 (hc0 : cond0_0 i) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7
      = k0_pay1 (k0_pay18 x0 x2 x3 (rowsProj x1 x4 x5) (rowsProj x1 x6 x7)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  show k0_pay1 (k0_pay18 (ldQ arg2 harg2 x0) (ldW arg4 harg4 x2) (ldB arg5 harg5 x3)
      (arg11.view.readCov (kList arg3 harg3 arg6 harg6 arg7 harg7 x1 x4 x5)
        (Rect.unit (s := S2048x1024) ![0, 0] S2048x1024.size inb_S2048x1024_S2048x1024_0_0).toLoadRect)
      (arg12.view.readCov (vList arg3 harg3 arg8 harg8 arg9 harg9 x1 x6 x7)
        (Rect.unit (s := S2048x1024) ![0, 0] S2048x1024.size inb_S2048x1024_S2048x1024_0_0).toLoadRect)) = _
  rw [ldQ_eq, ldW_eq, ldB_eq, readCov_kList, readCov_vList]

/-- At a later tile of the batch the output block is the attention of the query tile against what the scratch
    buffers held on entry. -/
theorem out_B_8 (hc0 : ¬cond0_0 i) (xs0 xs1 : Vec Ideal S2048x1024 .bf16) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = k0_pay1 (k0_pay18 x0 x2 x3 xs0 xs1) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz3]
  show k0_pay1 (k0_pay18 (ldQ arg2 harg2 x0) (ldW arg4 harg4 x2) (ldB arg5 harg5 x3) (ldS arg11 harg11 xs0) (ldS arg12 harg12 xs1)) = _
  rw [ldQ_eq, ldW_eq, ldB_eq, ldS_eq, ldS_eq]

end Cases

end Cert.KernelIdeal.Pieces

end
-- ==== Proof.KernelBlocks.lean ====
/-
  The blocks the body is handed, as entries of the arrays the region finds.

  Grid point t is (batch, tile) = (t / 8, t % 8). The query window's block at t is rows 256·(t % 8) … + 255 of batch
  t / 8 of the first input; the second input's block is the whole of batch t / 8; the weight and bias windows are their
  whole arrays at every point. The weights the region finds are the arguments' (the conversion to the matrix unit's input
  format is the identity on the values) and its bias rows the arguments' bias vectors.
-/
import proofs.«134540_j47493748359984_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided over the 64 grid points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val / 8 ∧ win0_8.index t (1 : Fin 3) = t.val % 8 ∧ win0_8.index t (2 : Fin 3) = 0 :=
  (by decide +kernel : ∀ t : Fin grid0.N, _)

/-- The query window's block at point t: rows 256·i … of batch b of the first input, (b, i) = (t / 8, t % 8). -/
theorem blk0_apply (c : Dev nD) (t : Fin cfg0.N) (b i : Fin 8) (hb : b.val = t.val / 8) (hi : i.val = t.val % 8)
    (r : Fin 256) (d : Fin 1024) (q : Fin 2048) (hq : q.val = 256 * i.val + r.val) :
    iblk m c 0 t (ix3 (0 : Fin 1) r d) = V m c main_arg0 (ix3 b q d) := by
  obtain ⟨f0, f1, f2, -⟩ := idx_facts t
  show V m c main_arg0 (((cfg0.win 0).blk t).view.emb (ix3 (0 : Fin 1) r d)) = _
  refine congrArg (V m c main_arg0) ?_
  funext a; apply Fin.ext
  match a with
  | ⟨0, _⟩ => show win0_0.index t (0 : Fin 3) * 1 + 1 * 0 = b.val; omega
  | ⟨1, _⟩ => show win0_0.index t (1 : Fin 3) * 256 + 1 * r.val = q.val; omega
  | ⟨2, _⟩ => show win0_0.index t (2 : Fin 3) * 1024 + 1 * d.val = d.val; omega

/-- The second input's block at point t: the whole of batch t / 8. -/
theorem blk1_apply (c : Dev nD) (t : Fin cfg0.N) (b : Fin 8) (hb : b.val = t.val / 8) (k : Fin 2048) (d : Fin 1024) :
    iblk m c 1 t (ix3 (0 : Fin 1) k d) = V m c main_arg1 (ix3 b k d) := by
  obtain ⟨-, -, -, f0, f1, f2, -⟩ := idx_facts t
  show V m c main_arg1 (((cfg0.win 1).blk t).view.emb (ix3 (0 : Fin 1) k d)) = _
  refine congrArg (V m c main_arg1) ?_
  funext a; apply Fin.ext
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 1024 + 1 * d.val = d.val; omega

/-- The query weights' block is their whole array. -/
theorem blk2_apply (c : Dev nD) (t : Fin cfg0.N) (d e : Fin 1024) : iblk m c 2 t (ix2 d e) = V m c main_v0 (ix2 d e) := by
  obtain ⟨-, -, -, -, -, -, f0, f1, -⟩ := idx_facts t
  show V m c main_v0 (((cfg0.win 2).blk t).view.emb (ix2 d e)) = _
  refine congrArg (V m c main_v0) ?_
  funext a; apply Fin.ext
  match a with
  | ⟨0, _⟩ => show win0_2.index t (0 : Fin 2) * 1024 + 1 * d.val = d.val; omega
  | ⟨1, _⟩ => show win0_2.index t (1 : Fin 2) * 1024 + 1 * e.val = e.val; omega

/-- The query bias row's block is its whole array. -/
theorem blk3_apply (c : Dev nD) (t : Fin cfg0.N) (u : Fin 1) (e : Fin 1024) : iblk m c 3 t (ix2 u e) = V m c main_v3 (ix2 u e) := by
  obtain ⟨-, -, -, -, -, -, -, -, f0, f1, -⟩ := idx_facts t
  show V m c main_v3 (((cfg0.win 3).blk t).view.emb (ix2 u e)) = _
  refine congrArg (V m c main_v3) ?_
  funext a; apply Fin.ext
  match a with
  | ⟨0, _⟩ => show win0_3.index t (0 : Fin 2) * 1 + 1 * u.val = u.val; omega
  | ⟨1, _⟩ => show win0_3.index t (1 : Fin 2) * 1024 + 1 * e.val = e.val; omega

/-- The key weights' block is their whole array. -/
theorem blk4_apply (c : Dev nD) (t : Fin cfg0.N) (d e : Fin 1024) : iblk m c 4 t (ix2 d e) = V m c main_v1 (ix2 d e) := by
  obtain ⟨-, -, -, -, -, -, -, -, -, -, f0, f1, -⟩ := idx_facts t
  show V m c main_v1 (((cfg0.win 4).blk t).view.emb (ix2 d e)) = _
  refine congrArg (V m c main_v1) ?_
  funext a; apply Fin.ext
  match a with
  | ⟨0, _⟩ => show win0_4.index t (0 : Fin 2) * 1024 + 1 * d.val = d.val; omega
  | ⟨1, _⟩ => show win0_4.index t (1 : Fin 2) * 1024 + 1 * e.val = e.val; omega

/-- The key bias row's block is its whole array. -/
theorem blk5_apply (c : Dev nD) (t : Fin cfg0.N) (u : Fin 1) (e : Fin 1024) : iblk m c 5 t (ix2 u e) = V m c main_v4 (ix2 u e) := by
  obtain ⟨-, -, -, -, -, -, -, -, -, -, -, -, f0, f1, -⟩ := idx_facts t
  show V m c main_v4 (((cfg0.win 5).blk t).view.emb (ix2 u e)) = _
  refine congrArg (V m c main_v4) ?_
  funext a; apply Fin.ext
  match a with
  | ⟨0, _⟩ => show win0_5.index t (0 : Fin 2) * 1 + 1 * u.val = u.val; omega
  | ⟨1, _⟩ => show win0_5.index t (1 : Fin 2) * 1024 + 1 * e.val = e.val; omega

/-- The value weights' block is their whole array. -/
theorem blk6_apply (c : Dev nD) (t : Fin cfg0.N) (d e : Fin 1024) : iblk m c 6 t (ix2 d e) = V m c main_v2 (ix2 d e) := by
  obtain ⟨-, -, -, -, -, -, -, -, -, -, -, -, -, -, f0, f1, -⟩ := idx_facts t
  show V m c main_v2 (((cfg0.win 6).blk t).view.emb (ix2 d e)) = _
  refine congrArg (V m c main_v2) ?_
  funext a; apply Fin.ext
  match a with
  | ⟨0, _⟩ => show win0_6.index t (0 : Fin 2) * 1024 + 1 * d.val = d.val; omega
  | ⟨1, _⟩ => show win0_6.index t (1 : Fin 2) * 1024 + 1 * e.val = e.val; omega

/-- The value bias row's block is its whole array. -/
theorem blk7_apply (c : Dev nD) (t : Fin cfg0.N) (u : Fin 1) (e : Fin 1024) : iblk m c 7 t (ix2 u e) = V m c main_v5 (ix2 u e) := by
  obtain ⟨-, -, -, -, -, -, -, -, -, -, -, -, -, -, -, -, f0, f1, -⟩ := idx_facts t
  show V m c main_v5 (((cfg0.win 7).blk t).view.emb (ix2 u e)) = _
  refine congrArg (V m c main_v5) ?_
  funext a; apply Fin.ext
  match a with
  | ⟨0, _⟩ => show win0_7.index t (0 : Fin 2) * 1 + 1 * u.val = u.val; omega
  | ⟨1, _⟩ => show win0_7.index t (1 : Fin 2) * 1024 + 1 * e.val = e.val; omega

/-! ## What the region finds in the converted weights and the reshaped bias rows -/

/-- The query weights the region finds are the argument's. -/
theorem V_wq (c : Dev nD) : (V m c main_v0 : S1024x1024.Idx → EReal) = m ((c : Thread nD τ).loc main_arg2) := by
  dsimp only [Gen.V, Gen.hostOps0]; after_results; rfl

/-- The key weights the region finds are the argument's. -/
theorem V_wk (c : Dev nD) : (V m c main_v1 : S1024x1024.Idx → EReal) = m ((c : Thread nD τ).loc main_arg4) := by
  dsimp only [Gen.V, Gen.hostOps0]; after_results; rfl

/-- The value weights the region finds are the argument's. -/
theorem V_wv (c : Dev nD) : (V m c main_v2 : S1024x1024.Idx → EReal) = m ((c : Thread nD τ).loc main_arg6) := by
  dsimp only [Gen.V, Gen.hostOps0]; after_results; rfl

/-- The query bias row the region finds holds the argument's bias vector. -/
theorem V_bq (c : Dev nD) (e : Fin 1024) : V m c main_v3 (ix2 (0 : Fin 1) e) = m ((c : Thread nD τ).loc main_arg3) (ix1 e) := by
  have h : (V m c main_v3 : S1x1024.Idx → EReal) = shapeCast S1x1024 (m ((c : Thread nD τ).loc main_arg3)) shapeCasts_S1024_S1x1024 := by
    dsimp only [Gen.V, Gen.hostOps0]; after_results; rfl
  rw [h]; exact shapeCast_a_1a_apply _ _ (0 : Fin 1) e

/-- The key bias row the region finds holds the argument's bias vector. -/
theorem V_bk (c : Dev nD) (e : Fin 1024) : V m c main_v4 (ix2 (0 : Fin 1) e) = m ((c : Thread nD τ).loc main_arg5) (ix1 e) := by
  have h : (V m c main_v4 : S1x1024.Idx → EReal) = shapeCast S1x1024 (m ((c : Thread nD τ).loc main_arg5)) shapeCasts_S1024_S1x1024 := by
    dsimp only [Gen.V, Gen.hostOps0]; after_results; rfl
  rw [h]; exact shapeCast_a_1a_apply _ _ (0 : Fin 1) e

/-- The value bias row the region finds holds the argument's bias vector. -/
theorem V_bv (c : Dev nD) (e : Fin 1024) : V m c main_v5 (ix2 (0 : Fin 1) e) = m ((c : Thread nD τ).loc main_arg7) (ix1 e) := by
  have h : (V m c main_v5 : S1x1024.Idx → EReal) = shapeCast S1x1024 (m ((c : Thread nD τ).loc main_arg7)) shapeCasts_S1024_S1x1024 := by
    dsimp only [Gen.V, Gen.hostOps0]; after_results; rfl
  rw [h]; exact shapeCast_a_1a_apply _ _ (0 : Fin 1) e

end Cert.KernelIdeal.Blocks

end
-- ==== Proof.KernelValue.lean ====
/-
  The kernel's result array is the function `G` of the arrays the region finds.

  By induction over the grid points in order: after point t the two scratch buffers hold the key and value projections
  of batch t / 8 — stored there at the batch's first tile, kept at its later ones —, so at every point the output block
  is the attention of that point's 256 query rows against batch t / 8's keys and values: block t of `G`. The 64 output
  blocks tile the result array.
-/
import proofs.«134540_j47493748359984_2_alg».proof.Proof.Gen.KernelIdeal.Value
import proofs.«134540_j47493748359984_2_alg».proof.Proof.KernelPieces
import proofs.«134540_j47493748359984_2_alg».proof.Proof.KernelBlocks

noncomputable section

namespace Cert.KernelIdeal.KValue

open Cert.KernelIdeal Cert.KernelIdeal.Gen Cert.KernelIdeal.Value Cert.KernelIdeal.Pay Cert.KernelIdeal.Pieces Cert.KernelIdeal.Blocks
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

/-- A bias row `[1, 1024]` as the vector of its entries. -/
def rowVec (v : S1x1024.Idx → EReal) : S1024.Idx → EReal := fun j => v (ix2 (0 : Fin 1) (j 0))

/-- `Σ_d x_d · w_d + β` on the extended reals: one entry of a projection, its factors listed by input channel. -/
def dotPlus (x w : Fin 1024 → EReal) (β : EReal) : EReal := (∑ d : Fin 1024, x d * w d) + β

/-- The key projection of batch `b`, as contents of the key scratch. -/
def Kb (c : Dev nD) (b : Fin 8) : S2048x1024.Idx → EReal := fun y =>
  proj (V m c main_arg1) (V m c main_v1) (rowVec (V m c main_v4)) b (y 0) (y 1)

/-- The value projection of batch `b`, as contents of the value scratch. -/
def Vb (c : Dev nD) (b : Fin 8) : S2048x1024.Idx → EReal := fun y =>
  proj (V m c main_arg1) (V m c main_v2) (rowVec (V m c main_v5)) b (y 0) (y 1)

/-- The result, as a function of the arrays the region finds. -/
def KG (c : Dev nD) : S8x2048x1024.Idx → EReal :=
  G (V m c main_arg0) (V m c main_arg1) (V m c main_v0) (V m c main_v1) (V m c main_v2)
    (rowVec (V m c main_v3)) (rowVec (V m c main_v4)) (rowVec (V m c main_v5))

/-- The key projection of the second input's block at a point of batch `b` is batch `b`'s key projection. -/
theorem ks_eq (c : Dev nD) (t : Fin cfg0.N) (b : Fin 8) (hb : b.val = t.val / 8) :
    rowsProj (R := 2048) (iblk m c 1 t) (iblk m c 4 t) (iblk m c 5 t) = Kb m c b := by
  funext y
  obtain ⟨k, e, rfl⟩ : ∃ (k : Fin 2048) (e : Fin 1024), y = ix2 k e := ⟨y 0, y 1, eq_ix2 y⟩
  show dotPlus (fun d => iblk m c 1 t (ix3 (0 : Fin 1) k d)) (fun d => iblk m c 4 t (ix2 d e)) (iblk m c 5 t (ix2 (0 : Fin 1) e))
    = dotPlus (fun d => V m c main_arg1 (ix3 b k d)) (fun d => V m c main_v1 (ix2 d e)) (V m c main_v4 (ix2 (0 : Fin 1) e))
  exact congr (congr (congrArg dotPlus (funext fun d => blk1_apply m c t b hb k d)) (funext fun d => blk4_apply m c t d e))
    (blk5_apply m c t (0 : Fin 1) e)

/-- The value projection likewise. -/
theorem vs_eq (c : Dev nD) (t : Fin cfg0.N) (b : Fin 8) (hb : b.val = t.val / 8) :
    rowsProj (R := 2048) (iblk m c 1 t) (iblk m c 6 t) (iblk m c 7 t) = Vb m c b := by
  funext y
  obtain ⟨k, e, rfl⟩ : ∃ (k : Fin 2048) (e : Fin 1024), y = ix2 k e := ⟨y 0, y 1, eq_ix2 y⟩
  show dotPlus (fun d => iblk m c 1 t (ix3 (0 : Fin 1) k d)) (fun d => iblk m c 6 t (ix2 d e)) (iblk m c 7 t (ix2 (0 : Fin 1) e))
    = dotPlus (fun d => V m c main_arg1 (ix3 b k d)) (fun d => V m c main_v2 (ix2 d e)) (V m c main_v5 (ix2 (0 : Fin 1) e))
  exact congr (congr (congrArg dotPlus (funext fun d => blk1_apply m c t b hb k d)) (funext fun d => blk6_apply m c t d e))
    (blk7_apply m c t (0 : Fin 1) e)

/-- THE INVARIANT: after point n the scratch buffers hold the key and value projections of batch n / 8. -/
theorem scratch_inv (c : Dev nD) : ∀ (n : ℕ) (h : n < cfg0.N) (b : Fin 8), b.val = n / 8 →
    (outsAt0 m c n h).2.1 = Kb m c b ∧ (outsAt0 m c n h).2.2 = Vb m c b := by
  intro n
  induction n with
  | zero =>
    intro h b hb
    rw [outsAt0_A m c ⟨0, h⟩ rfl]
    dsimp only
    exact ⟨(sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) _).trans (ks_eq m c ⟨0, h⟩ b hb),
      (sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) _).trans (vs_eq m c ⟨0, h⟩ b hb)⟩
  | succ n ih =>
    intro h b hb
    by_cases h0 : (n + 1) % 8 = 0
    · rw [outsAt0_A m c ⟨n + 1, h⟩ h0]
      dsimp only
      exact ⟨(sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans (ks_eq m c ⟨n + 1, h⟩ b hb),
        (sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans (vs_eq m c ⟨n + 1, h⟩ b hb)⟩
    · rw [outsAt0_B m c ⟨n + 1, h⟩ h0]
      dsimp only
      unfold sout0_B_0 sout0_B_1
      exact ih (Nat.lt_of_succ_lt h) b (by omega)

/-- At every point the output's staging buffer ends holding the attention of the point's query tile against its
    batch's key and value projections. -/
theorem out_eq (c : Dev nD) (t : Fin cfg0.N) (b : Fin 8) (hb : b.val = t.val / 8) :
    (outsAt0 m c t.val t.isLt).1 = k0_pay1 (k0_pay18 (iblk m c 0 t) (iblk m c 2 t) (iblk m c 3 t) (Kb m c b) (Vb m c b)) := by
  by_cases h0 : t.val % 8 = 0
  · rw [outsAt0_A m c t h0]
    dsimp only
    rw [out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0), ks_eq m c t b hb, vs_eq m c t b hb]
  · rw [outsAt0_B m c t h0]
    dsimp only
    have hN : grid0.N = 64 := N_0
    have hlt : t.val < grid0.N := t.isLt
    obtain ⟨e1, e2⟩ := scratch_inv m c (t.val - 1) (Nat.lt_of_le_of_lt (Nat.sub_le _ _) t.isLt) b (by omega)
    rw [out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) _ _, e1, e2]

/-- WHAT POINT t WRITES BACK is block t of `KG`. -/
theorem flushed_eq (c : Dev nD) (t : Fin cfg0.N) :
    (dats m 0 c).flushed 8 t = ((cfg0.win 8).blk t).view.read (Elt Ideal) (KG m c) := by
  have hN : grid0.N = 64 := N_0
  have hlt : t.val < grid0.N := t.isLt
  obtain ⟨b, hb⟩ : ∃ b : Fin 8, b.val = t.val / 8 := ⟨⟨t.val / 8, by omega⟩, rfl⟩
  obtain ⟨i, hi⟩ : ∃ i : Fin 8, i.val = t.val % 8 := ⟨⟨t.val % 8, by omega⟩, rfl⟩
  obtain ⟨-, -, -, -, -, -, -, -, -, -, -, -, -, -, -, -, -, -, f0, f1, f2⟩ := idx_facts t
  rw [flushed8, out_eq m c t b hb]
  funext y
  obtain ⟨u, r, e, rfl⟩ : ∃ (u : Fin 1) (r : Fin 256) (e : Fin 1024), y = ix3 u r e := ⟨y 0, y 1, y 2, eq_ix3 y⟩
  obtain ⟨q, hq⟩ : ∃ q : Fin 2048, q.val = 256 * i.val + r.val := ⟨⟨256 * i.val + r.val, by omega⟩, rfl⟩
  have hemb : ((cfg0.win 8).blk t).view.emb (ix3 u r e) = ix3 b q e := by
    funext a; apply Fin.ext
    match a with
    | ⟨0, _⟩ => show win0_8.index t (0 : Fin 3) * 1 + 1 * u.val = b.val; omega
    | ⟨1, _⟩ => show win0_8.index t (1 : Fin 3) * 256 + 1 * r.val = q.val; omega
    | ⟨2, _⟩ => show win0_8.index t (2 : Fin 3) * 1024 + 1 * e.val = e.val; omega
  show k0_pay1 (k0_pay18 (iblk m c 0 t) (iblk m c 2 t) (iblk m c 3 t) (Kb m c b) (Vb m c b)) (ix3 u r e)
    = KG m c (((cfg0.win 8).blk t).view.emb (ix3 u r e))
  rw [hemb]
  refine (pay18_apply (iblk m c 0 t) (iblk m c 2 t) (iblk m c 3 t) (Kb m c b) (Vb m c b) u r e).trans ?_
  show _ = attnRow (fun e' => proj (V m c main_arg0) (V m c main_v0) (rowVec (V m c main_v3)) b q e')
    (fun k e' => Kb m c b (ix2 k e')) (fun k e' => Vb m c b (ix2 k e')) e
  refine congrArg (fun qf => attnRow qf (fun k e' => Kb m c b (ix2 k e')) (fun k e' => Vb m c b (ix2 k e')) e) (funext fun e' => ?_)
  show dotPlus (fun d => iblk m c 0 t (ix3 (0 : Fin 1) r d)) (fun d => iblk m c 2 t (ix2 d e')) (iblk m c 3 t (ix2 (0 : Fin 1) e'))
    = dotPlus (fun d => V m c main_arg0 (ix3 b q d)) (fun d => V m c main_v0 (ix2 d e')) (V m c main_v3 (ix2 (0 : Fin 1) e'))
  exact congr (congr (congrArg dotPlus (funext fun d => blk0_apply m c t b i hb hi r d q hq)) (funext fun d => blk2_apply m c t d e'))
    (blk3_apply m c t (0 : Fin 1) e')

/-- An index of the result array is in point t's block iff each coordinate is in the block's range on its axis. -/
theorem mem_blk (t : Fin cfg0.N) (i : S8x2048x1024.Idx) :
    i ∈ ((cfg0.win 8).blk t).view.set ↔ ∀ a : Fin 3, win0_8.index t a * S1x256x1024.size a ≤ (i a).val
      ∧ (i a).val < win0_8.index t a * S1x256x1024.size a + S1x256x1024.size a := by
  show i ∈ ((View.whole main_v6).slice (win0_8.rect t)).set ↔ _
  rw [View.set_slice_whole, Rect.mem_set_unit]
  exact Iff.rfl

/-- Every (batch, tile) pair is some point's output block index. -/
theorem idx_onto : ∀ (b i : Fin 8), ∃ t : Fin cfg0.N, win0_8.index t = ![b.val, i.val, 0] :=
  (by decide +kernel : ∀ (b i : Fin 8), ∃ t : Fin grid0.N, win0_8.index t = ![b.val, i.val, 0])

/-- THE RESULT ARRAY after the run is `KG`: the 64 output blocks tile it. -/
theorem final (c : Dev nD) : (dats m 0 c).arrAt 8 cfg0.N = KG m c :=
  (dats m 0 c).arrAt_eq_of_cover 8 (KG m c) (fun t _ => flushed_eq m c t) fun i => by
    have h0 : (i 0).val < 8 := (i 0).isLt
    have h1 : (i 1).val < 2048 := (i 1).isLt
    have h2 : (i 2).val < 1024 := (i 2).isLt
    obtain ⟨t, ht⟩ := idx_onto ⟨(i 0).val, h0⟩ ⟨(i 1).val / 256, by omega⟩
    have q0 : win0_8.index t (0 : Fin 3) = (i 0).val := congrFun ht 0
    have q1 : win0_8.index t (1 : Fin 3) = (i 1).val / 256 := congrFun ht 1
    have q2 : win0_8.index t (2 : Fin 3) = 0 := congrFun ht 2
    refine ⟨t, flush0_8 t, ?_⟩
    rw [mem_blk]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 256 ≤ (i 1).val ∧ (i 1).val < win0_8.index t (1 : Fin 3) * 256 + 256; omega
    | ⟨2, _⟩ => show win0_8.index t (2 : Fin 3) * 1024 ≤ (i 2).val ∧ (i 2).val < win0_8.index t (2 : Fin 3) * 1024 + 1024; omega

/-- `KG` is `G` of the argument arrays: the region finds the inputs as launched, the weights converted (the identity on
    the values) and the bias vectors as rows. -/
theorem KG_eq (c : Dev nD) : KG m c = G (m ((c : Thread nD τ).loc main_arg0)) (m ((c : Thread nD τ).loc main_arg1))
    (m ((c : Thread nD τ).loc main_arg2)) (m ((c : Thread nD τ).loc main_arg4)) (m ((c : Thread nD τ).loc main_arg6))
    (m ((c : Thread nD τ).loc main_arg3)) (m ((c : Thread nD τ).loc main_arg5)) (m ((c : Thread nD τ).loc main_arg7)) := by
  have e3 : rowVec (V m c main_v3) = m ((c : Thread nD τ).loc main_arg3) :=
    funext fun j => (V_bq m c (j 0)).trans (congrArg _ (eq_ix1 j).symm)
  have e4 : rowVec (V m c main_v4) = m ((c : Thread nD τ).loc main_arg5) :=
    funext fun j => (V_bk m c (j 0)).trans (congrArg _ (eq_ix1 j).symm)
  have e5 : rowVec (V m c main_v5) = m ((c : Thread nD τ).loc main_arg7) :=
    funext fun j => (V_bv m c (j 0)).trans (congrArg _ (eq_ix1 j).symm)
  unfold KG
  rw [e3, e4, e5, V_wq m c, V_wk m c, V_wv m c, V_main_arg0 m c, V_main_arg1 m c]

/-- The run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1))
        (m ((c : Thread nD τ).loc main_arg2)) (m ((c : Thread nD τ).loc main_arg4)) (m ((c : Thread nD τ).loc main_arg6))
        (m ((c : Thread nD τ).loc main_arg3)) (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1.trans (final m c)).trans (KG_eq m c), (h c).2⟩) (run_blocks m ρ)

end Cert.KernelIdeal.KValue

end
-- ==== Proof.RefValue.lean ====
/-
  The reference, read entry by entry on the extended reals: its result array is the function `G` of `Spec.lean`.

  Its three projections are sums over the input channels plus a bias entry; its scores the scaled, clamped inner
  products of a query row with the key rows; its softmax subtracts the row maximum — a fold of `max` from -∞, taken
  once more against -∞, which changes nothing —, exponentiates, and divides by the row sum (zero plus the sum); its
  result the sum over the keys of the weights times the value rows.
-/
import proofs.«134540_j47493748359984_2_alg».proof.Proof.Gen.ReferenceIdeal.Read
import proofs.«134540_j47493748359984_2_alg».proof.Proof.Spec
import proofs.«134540_j47493748359984_2_alg».proof.Proof.LibMaxAxis

noncomputable section

namespace Cert.ReferenceIdeal.RefValue

open Cert.ReferenceIdeal Cert.ReferenceIdeal.Gen Cert.ReferenceIdeal.Read Idealize.ShloMosaic Idealize.ShloMosaic.ValueIdx
open Cert.Attn Cert.LibRowKeepdims

variable (x0 x1 : (⟨S8x2048x1024, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- The query projection at (b, r, e). -/
theorem q_apply (b : Fin 8) (r : Fin 2048) (e : Fin 1024) :
    val_main_v3 (F := Ideal) x0 x2 x3 (ix3 b r e) = proj x0 x2 x3 b r e := by
  rw [val_main_v3_apply, val_main_v0_apply, val_main_v2_apply, val_main_v1_apply]
  refine congrArg₂ (· + ·) (Finset.sum_congr rfl fun d _ => ?_) (congrArg x3 ?_)
  · exact congrArg₂ (· * ·)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact funext fun a => Fin.ext (by match a with | ⟨0, _⟩ => rfl)

/-- The key projection at (b, r, e). -/
theorem k_apply (b : Fin 8) (r : Fin 2048) (e : Fin 1024) :
    val_main_v7 (F := Ideal) x1 x4 x5 (ix3 b r e) = proj x1 x4 x5 b r e := by
  rw [val_main_v7_apply, val_main_v4_apply, val_main_v6_apply, val_main_v5_apply]
  refine congrArg₂ (· + ·) (Finset.sum_congr rfl fun d _ => ?_) (congrArg x5 ?_)
  · exact congrArg₂ (· * ·)
      (congrArg x1 (funext fun a => Fin.ext (by match a with | ⟨0, _⟩ => rfl | ⟨1, _⟩ => rfl | ⟨2, _⟩ => rfl)))
      (congrArg x4 (funext fun a => Fin.ext (by match a with | ⟨0, _⟩ => rfl | ⟨1, _⟩ => rfl)))
  · exact funext fun a => Fin.ext (by match a with | ⟨0, _⟩ => rfl)

/-- The value projection at (b, r, e). -/
theorem v_apply (b : Fin 8) (r : Fin 2048) (e : Fin 1024) :
    val_main_v11 (F := Ideal) x1 x6 x7 (ix3 b r e) = proj x1 x6 x7 b r e := by
  rw [val_main_v11_apply, val_main_v8_apply, val_main_v10_apply, val_main_v9_apply]
  refine congrArg₂ (· + ·) (Finset.sum_congr rfl fun d _ => ?_) (congrArg x7 ?_)
  · exact congrArg₂ (· * ·)
      (congrArg x1 (funext fun a => Fin.ext (by match a with | ⟨0, _⟩ => rfl | ⟨1, _⟩ => rfl | ⟨2, _⟩ => rfl)))
      (congrArg x6 (funext fun a => Fin.ext (by match a with | ⟨0, _⟩ => rfl | ⟨1, _⟩ => rfl)))
  · exact funext fun a => Fin.ext (by match a with | ⟨0, _⟩ => rfl)

/-- The clamped, scaled scores at (b, q, k): query row (b, q) against key row (b, k). -/
theorem s_apply (b : Fin 8) (q : Fin 2048) (k : Fin 2048) :
    val_main_v15 (F := Ideal) x0 x1 x2 x3 x4 x5 (ix3 b q k)
      = score (fun e => proj x0 x2 x3 b q e) (fun k' e => proj x1 x4 x5 b k' e) k := by
  rw [val_main_v15_apply, val_main_call0_v4_apply, val_main_call0_v3_apply, val_main_cst_1_apply, val_main_call0_v2_apply,
    val_main_call0_v1_apply, val_main_call0_v0_apply, val_main_cst_0_apply, val_main_v14_apply, val_main_v12_apply,
    val_main_v13_apply, val_main_cst_apply]
  refine congrArg (fun z => min hiC (max loC (z * scaleC))) (Finset.sum_congr rfl fun e _ => ?_)
  refine congrArg₂ (· * ·) ?_ ?_
  · refine Eq.trans (congrArg (val_main_v3 (F := Ideal) x0 x2 x3) ?_) (q_apply x0 x2 x3 b q e)
    exact funext fun a => Fin.ext (by match a with | ⟨0, _⟩ => rfl | ⟨1, _⟩ => rfl | ⟨2, _⟩ => rfl)
  · refine Eq.trans (congrArg (val_main_v7 (F := Ideal) x1 x4 x5) ?_) (k_apply x1 x4 x5 b k e)
    exact funext fun a => Fin.ext (by match a with | ⟨0, _⟩ => rfl | ⟨1, _⟩ => rfl | ⟨2, _⟩ => rfl)

/-- The row maximum at (b, q): the fold of `max` from -∞ over the row's scores (the second `max` against -∞ absorbed). -/
theorem m_apply (b : Fin 8) (q : Fin 2048) :
    val_main_v18 (F := Ideal) x0 x1 x2 x3 x4 x5 (ix2 b q)
      = (Finset.univ : Finset (Fin 2048)).fold max negInfC (fun k => val_main_v15 (F := Ideal) x0 x1 x2 x3 x4 x5 (ix3 b q k)) := by
  rw [val_main_v18_apply, val_main_v17_apply, val_main_cst_3_apply]
  unfold val_main_v16
  refine (congrArg (max negInfC) (Cert.LibMaxAxis.hostMaxLastAxis_apply (φ := .f32) (a := 8) (b := 2048) (c := 2048) _ _
    reducesTo_S8x2048x2048_S8x2048_d2 (by decide) h_S_ b q)).trans ?_
  exact Cert.LibMaxAxis.max_fold_max_self _ _ _

/-- The softmax numerator at (b, q, k). -/
theorem p_apply (b : Fin 8) (q : Fin 2048) (k : Fin 2048) :
    val_main_v22 (F := Ideal) x0 x1 x2 x3 x4 x5 (ix3 b q k)
      = Ideal.exp (val_main_v15 (F := Ideal) x0 x1 x2 x3 x4 x5 (ix3 b q k)
          - (Finset.univ : Finset (Fin 2048)).fold max negInfC (fun k' => val_main_v15 (F := Ideal) x0 x1 x2 x3 x4 x5 (ix3 b q k'))) := by
  rw [val_main_v22_apply, val_main_v21_apply, val_main_v20_apply, val_main_v19_apply]
  refine congrArg (fun z => Ideal.exp (val_main_v15 (F := Ideal) x0 x1 x2 x3 x4 x5 (ix3 b q k) - z)) ?_
  refine Eq.trans (congrArg (val_main_v18 (F := Ideal) x0 x1 x2 x3 x4 x5) ?_) (m_apply x0 x1 x2 x3 x4 x5 b q)
  exact funext fun a => Fin.ext (by match a with | ⟨0, _⟩ => rfl | ⟨1, _⟩ => rfl)

/-- The softmax weights at (b, q, k): the softmax entry k of row (b, q) of the scores. -/
theorem w_apply (b : Fin 8) (q : Fin 2048) (k : Fin 2048) :
    val_main_v26 (F := Ideal) x0 x1 x2 x3 x4 x5 (ix3 b q k)
      = softmaxEntry (fun k' => val_main_v15 (F := Ideal) x0 x1 x2 x3 x4 x5 (ix3 b q k')) negInfC k := by
  rw [val_main_v26_apply, val_main_v25_apply, val_main_v24_apply, val_main_v23_apply, val_main_cst_4_apply]
  refine congrArg₂ Ideal.div (p_apply x0 x1 x2 x3 x4 x5 b q k) ?_
  refine Eq.trans (congrArg (· + _) Ideal.ofBits_zero_f32) ?_
  refine (zero_add _).trans (Finset.sum_congr rfl fun k' _ => ?_)
  refine Eq.trans (congrArg (val_main_v22 (F := Ideal) x0 x1 x2 x3 x4 x5) ?_) (p_apply x0 x1 x2 x3 x4 x5 b q k')
  exact funext fun a => Fin.ext (by match a with | ⟨0, _⟩ => rfl | ⟨1, _⟩ => rfl | ⟨2, _⟩ => rfl)

/-- The reference's result is `G` of its arguments. -/
theorem result_eq : val_main_v27 (F := Ideal) x0 x1 x2 x3 x4 x5 x6 x7 = G x0 x1 x2 x4 x6 x3 x5 x7 := by
  funext i
  obtain ⟨b, q, e, rfl⟩ : ∃ (b : Fin 8) (q : Fin 2048) (e : Fin 1024), i = ix3 b q e := ⟨i 0, i 1, i 2, eq_ix3 i⟩
  rw [val_main_v27_apply]
  show _ = attnRow (fun e' => proj x0 x2 x3 b q e') (fun k e' => proj x1 x4 x5 b k e') (fun k e' => proj x1 x6 x7 b k e') e
  unfold attnRow
  refine Finset.sum_congr rfl fun k _ => ?_
  refine congrArg₂ (· * ·) ?_ ?_
  · refine Eq.trans (congrArg (val_main_v26 (F := Ideal) x0 x1 x2 x3 x4 x5) ?_) ((w_apply x0 x1 x2 x3 x4 x5 b q k).trans ?_)
    · exact funext fun a => Fin.ext (by match a with | ⟨0, _⟩ => rfl | ⟨1, _⟩ => rfl | ⟨2, _⟩ => rfl)
    · exact congrArg (fun f => softmaxEntry f negInfC k) (funext fun k' => s_apply x0 x1 x2 x3 x4 x5 b q k')
  · refine Eq.trans (congrArg (val_main_v11 (F := Ideal) x1 x6 x7) ?_) (v_apply x1 x6 x7 b k e)
    exact funext fun a => Fin.ext (by match a with | ⟨0, _⟩ => rfl | ⟨1, _⟩ => rfl | ⟨2, _⟩ => rfl)

end Cert.ReferenceIdeal.RefValue

end
-- ==== Proof.lean ====
/-
  Fused cross-attention against its reference, on the extended reals.

  Both programs compute, for every batch b, query row q and output channel e,
      o (b, q, e) = Σ_k softmax_k (s (b, q, ·)) · V (b, k, e),
      s (b, q, k) = min (100, max (-100, (Σ_e' Q (b, q, e') · K (b, k, e')) / 32)),
  with Q, K, V the three projections (a sum over the 1024 input channels plus a bias entry) and the softmax taken with
  its row maximum subtracted. The kernel computes it tile by tile — 256 query rows at a time, the key and value
  projections of a batch computed once, at the batch's first tile, into scratch that the batch's later tiles read —
  and the reference over whole arrays. On the extended reals a change of float format is the identity and a matrix
  product is a plain sum, so the two are the same function entry by entry, `G` of Proof/Spec.lean, and no property of
  the inputs is used.

  Proof/KernelValue.lean reads the kernel's result array as `G` of the argument arrays (an induction over the grid
  points carrying what the scratch holds); Proof/RefValue.lean reads the reference's result as the same `G`. The three
  frame claims are the generated runs; the ideal pass rewrote nothing, so `preserves` is `True`.
-/
import proofs.«134540_j47493748359984_2_alg».proof.Defs
import proofs.«134540_j47493748359984_2_alg».proof.Proof.Gen.Kernel
import proofs.«134540_j47493748359984_2_alg».proof.Proof.Gen.Kernel.Skeleton
import proofs.«134540_j47493748359984_2_alg».proof.Proof.Gen.Kernel.Launch
import proofs.«134540_j47493748359984_2_alg».proof.Proof.Gen.Kernel.Points
import proofs.«134540_j47493748359984_2_alg».proof.Proof.Gen.Kernel.Frame
import proofs.«134540_j47493748359984_2_alg».proof.Proof.Gen.KernelIdeal
import proofs.«134540_j47493748359984_2_alg».proof.Proof.Gen.KernelIdeal.Skeleton
import proofs.«134540_j47493748359984_2_alg».proof.Proof.Gen.KernelIdeal.Launch
import proofs.«134540_j47493748359984_2_alg».proof.Proof.Gen.KernelIdeal.Points
import proofs.«134540_j47493748359984_2_alg».proof.Proof.Gen.KernelIdeal.Frame
import proofs.«134540_j47493748359984_2_alg».proof.Proof.Gen.ReferenceIdeal
import proofs.«134540_j47493748359984_2_alg».proof.Proof.Gen.KernelIdeal.Value
import proofs.«134540_j47493748359984_2_alg».proof.Proof.Gen.ReferenceIdeal.Run
import proofs.«134540_j47493748359984_2_alg».proof.Proof.Gen.ReferenceIdeal.Read
import proofs.«134540_j47493748359984_2_alg».proof.Proof.Gen.Pre_finite_inputs
import proofs.«134540_j47493748359984_2_alg».proof.Proof.KernelValue
import proofs.«134540_j47493748359984_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with `G` of the arguments in their result
    arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v27_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
